-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1500 : Shape := ⟨3, ![16, 256, 1500]⟩
abbrev S64x256 : Shape := ⟨2, ![64, 256]⟩
abbrev S66x256 : Shape := ⟨2, ![66, 256]⟩
abbrev S66 : Shape := ⟨1, ![66]⟩
abbrev S_ : Shape := ⟨0, ![]⟩

class Facts : Prop where
  bcast_S_S16x256x1500 : S_.BroadcastsInDim S16x256x1500 (![] : Fin 0 → Fin S16x256x1500.rank)
  reducesTo_S16x256x1500_S_d0_1_2 : S16x256x1500.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S66x256 : S_.BroadcastsInDim S66x256 (![] : Fin 0 → Fin S66x256.rank)
  reducesTo_S66x256_S_d0_1 : S66x256.ReducesTo [0, 1] S_
  bcast_S_S66 : S_.BroadcastsInDim S66 (![] : Fin 0 → Fin S66.rank)
  reducesTo_S66_S_d0 : S66.ReducesTo [0] S_

variable [Facts]

def fn_part1 {F : FTy → Type} [FloatOps F] (main_v13 : IVec S_ 1) (main_v16 : IVec S66 1) : IVec S_ 1 :=
  let main_c_5 : IVec S_ 1 := constantI S_ 1 1#1
  let main_v17 : IVec S_ 1 := (fun x v => Host.reduce IntOp.andi x v reducesTo_S66_S_d0 h_S_) main_v16 main_c_5
  let main_v18 : IVec S_ 1 := andi main_v13 main_v17
  main_v18

def fn {F : FTy → Type} [FloatOps F] (main_arg0 : FVec F S16x256x1500 .f32) (main_arg1 : FVec F S64x256 .f32) (main_arg2 : FVec F S66x256 .f32) (main_arg3 : FVec F S66 .f32) : IVec S_ 1 :=
  let main_v0 : FVec F S16x256x1500 .f32 := Host.absf main_arg0
  let main_cst : FVec F S_ .f32 := constant S_ .f32 0x7F800000#32
  let main_v1 : FVec F S16x256x1500 .f32 := broadcastInDim S16x256x1500 ![] bcast_S_S16x256x1500 main_cst
  let main_v2 : IVec S16x256x1500 1 := cmpf .olt main_v0 main_v1
  let main_c : IVec S_ 1 := constantI S_ 1 1#1
  let main_v3 : IVec S_ 1 := (fun x v => Host.reduce IntOp.andi x v reducesTo_S16x256x1500_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S66x256 .f32 := Host.absf main_arg2
  let main_cst_2 : FVec F S_ .f32 := constant S_ .f32 0x7F800000#32
  let main_v10 : FVec F S66x256 .f32 := broadcastInDim S66x256 ![] bcast_S_S66x256 main_cst_2
  let main_v11 : IVec S66x256 1 := cmpf .olt main_v9 main_v10
  let main_c_3 : IVec S_ 1 := constantI S_ 1 1#1
  let main_v12 : IVec S_ 1 := (fun x v => Host.reduce IntOp.andi x v reducesTo_S66x256_S_d0_1 h_S_) main_v11 main_c_3
  let main_v13 : IVec S_ 1 := andi main_v8 main_v12
  let main_v14 : FVec F S66 .f32 := Host.absf main_arg3
  let main_cst_4 : FVec F S_ .f32 := constant S_ .f32 0x7F800000#32
  let main_v15 : FVec F S66 .f32 := broadcastInDim S66 ![] bcast_S_S66 main_cst_4
  let main_v16 : IVec S66 1 := cmpf .olt main_v14 main_v15
  fn_part1 (F := F) main_v13 main_v16
-- ==== Kernel.lean ====
abbrev S16x256x1500 : Shape := ⟨3, ![16, 256, 1500]⟩
abbrev S64x256 : Shape := ⟨2, ![64, 256]⟩
abbrev S66x256 : Shape := ⟨2, ![66, 256]⟩
abbrev S66 : Shape := ⟨1, ![66]⟩
abbrev S66x1 : Shape := ⟨2, ![66, 1]⟩
abbrev S16x64x256 : Shape := ⟨3, ![16, 64, 256]⟩
abbrev S1x256x1500 : Shape := ⟨3, ![1, 256, 1500]⟩
abbrev S1x64x256 : Shape := ⟨3, ![1, 64, 256]⟩
abbrev S256x1500 : Shape := ⟨2, ![256, 1500]⟩
abbrev S66x1500 : Shape := ⟨2, ![66, 1500]⟩
abbrev S1500 : Shape := ⟨1, ![1500]⟩
abbrev S1x1500 : Shape := ⟨2, ![1, 1500]⟩
abbrev S64x1500 : Shape := ⟨2, ![64, 1500]⟩
abbrev S64 : Shape := ⟨1, ![64]⟩
abbrev S64x1 : Shape := ⟨2, ![64, 1]⟩
abbrev S1 : Shape := ⟨1, ![1]⟩
abbrev S1x1 : Shape := ⟨2, ![1, 1]⟩
abbrev S16x16384 : Shape := ⟨2, ![16, 16384]⟩

abbrev nBuf : Space → Nat
  | .hbm => 7
  | .vmem => 7
  | .smem => 0
  | _ => 0

abbrev bufTy : (tb : Table) → Fin (tcTables nBuf tb) → BufTy
  | .hbm, ⟨0, _⟩ => ⟨S16x256x1500, .f32⟩
  | .hbm, ⟨1, _⟩ => ⟨S64x256, .f32⟩
  | .hbm, ⟨2, _⟩ => ⟨S66x256, .f32⟩
  | .hbm, ⟨3, _⟩ => ⟨S66, .f32⟩
  | .hbm, ⟨4, _⟩ => ⟨S66x1, .f32⟩
  | .hbm, ⟨5, _⟩ => ⟨S16x64x256, .f32⟩
  | .hbm, ⟨6, _⟩ => ⟨S16x16384, .f32⟩
  | .local _ .vmem, ⟨0, _⟩ => ⟨S1x256x1500, .f32⟩
  | .local _ .vmem, ⟨1, _⟩ => ⟨S1x256x1500, .f32⟩
  | .local _ .vmem, ⟨2, _⟩ => ⟨S66x256, .f32⟩
  | .local _ .vmem, ⟨3, _⟩ => ⟨S66x1, .f32⟩
  | .local _ .vmem, ⟨4, _⟩ => ⟨S64x256, .f32⟩
  | .local _ .vmem, ⟨5, _⟩ => ⟨S1x64x256, .f32⟩
  | .local _ .vmem, ⟨6, _⟩ => ⟨S1x64x256, .f32⟩
  | _, _ => ⟨S16x256x1500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S66x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S66x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S66_S66x1 : S66.ShapeCasts S66x1
  inb_S1x256x1500_S1x256x1500_0_0_0 : ∀ a, (![0, 0, 0] : Fin 3 → Nat) a + S1x256x1500.size a ≤ S1x256x1500.size a
  h_S1x256x1500 : 0 < S1x256x1500.numel
  shapeCasts_S1x256x1500_S256x1500 : S1x256x1500.ShapeCasts S256x1500
  bitsLt_bf16_f32 : FTy.bits .bf16 < FTy.bits .f32
  inb_S66x256_S66x256_0_0 : ∀ a, (![0, 0] : Fin 2 → Nat) a + S66x256.size a ≤ S66x256.size a
  h_S66x256 : 0 < S66x256.numel
  inb_S66x1_S66x1_0_0 : ∀ a, (![0, 0] : Fin 2 → Nat) a + S66x1.size a ≤ S66x1.size a
  h_S66x1 : 0 < S66x1.numel
  shapeCasts_S66x1_S66x1 : S66x1.ShapeCasts S66x1
  broadcasts_S66x1_S66x1500 : S66x1.Broadcasts S66x1500
  reduces_S66x1500_S1500 : S66x1500.Reduces [0] S1500
  shapeCasts_S1500_S1x1500 : S1500.ShapeCasts S1x1500
  broadcasts_S1x1500_S66x1500 : S1x1500.Broadcasts S66x1500
  slices_S66x1500_o0_0_S64x1500 : S66x1500.Slices ![0, 0] S64x1500
  reduces_S64x1500_S64 : S64x1500.Reduces [1] S64
  shapeCasts_S64_S64x1 : S64.ShapeCasts S64x1
  inb_S64x256_S64x256_0_0 : ∀ a, (![0, 0] : Fin 2 → Nat) a + S64x256.size a ≤ S64x256.size a
  h_S64x256 : 0 < S64x256.numel
  broadcasts_S64x1_S64x256 : S64x1.Broadcasts S64x256
  reduces_S64x256_S64 : S64x256.Reduces [1] S64
  reduces_S64x1_S1 : S64x1.Reduces [0] S1
  shapeCasts_S1_S1x1 : S1.ShapeCasts S1x1
  broadcasts_S1x1_S64x256 : S1x1.Broadcasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  shapeCasts_S16x64x256_S16x16384 : S16x64x256.ShapeCasts S16x16384
  dot_S66x256_S256x1500_S66x1500_1_0_0_1_n_n_wf : DotDims.WF S66x256 S256x1500 S66x1500 [1] [0] [0] [1] [] []
  dot_S64x1500_S256x1500_S64x256_1_1_0_0_n_n_wf : DotDims.WF S64x1500 S256x1500 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1500.size a ≤ S16x256x1500.size a
  hwx0_0 : ∀ i : grid0.Coords, EltTy.bits .f32 = 32 ∨ (Rect.block (s := S16x256x1500) S1x256x1500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S66x256.size a ≤ S66x256.size a
  hwx0_1 : ∀ i : grid0.Coords, EltTy.bits .f32 = 32 ∨ (Rect.block (s := S66x256) S66x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S66x1.size a ≤ S66x1.size a
  hwx0_2 : ∀ i : grid0.Coords, EltTy.bits .f32 = 32 ∨ (Rect.block (s := S66x1) S66x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S16x64x256.size a
  hwx0_4 : ∀ i : grid0.Coords, EltTy.bits .f32 = 32 ∨ (Rect.block (s := S16x64x256) S1x64x256.size (cc0_transform_4 i) (hinb0_4 i)).WholeWords (EltTy.packing .f32)

variable [Facts₀]

def dot_S66x256_S256x1500_S66x1500_1_0_0_1_n_n : DotDims S66x256 S256x1500 S66x1500 where
  lhsContracting := [1]
  rhsContracting := [0]
  lhsNonContracting := [0]
  rhsNonContracting := [1]
  lhsBatch := []
  rhsBatch := []
  wf := dot_S66x256_S256x1500_S66x1500_1_0_0_1_n_n_wf
def dot_S64x1500_S256x1500_S64x256_1_1_0_0_n_n : DotDims S64x1500 S256x1500 S64x256 where
  lhsContracting := [1]
  rhsContracting := [1]
  lhsNonContracting := [0]
  rhsNonContracting := [0]
  lhsBatch := []
  rhsBatch := []
  wf := dot_S64x1500_S256x1500_S64x256_1_1_0_0_n_n_wf

abbrev win0_0 : Pipeline.Window sig grid0 :=
  Pipeline.Window.ofSpec (Memref.whole main_arg0) S1x256x1500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S66x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S66x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x1500 : Shape := ⟨3, ![16, 256, 1500]⟩
abbrev S64x256 : Shape := ⟨2, ![64, 256]⟩
abbrev S66x256 : Shape := ⟨2, ![66, 256]⟩
abbrev S66 : Shape := ⟨1, ![66]⟩
abbrev S16x1500x256 : Shape := ⟨3, ![16, 1500, 256]⟩
abbrev S16x1500x66 : Shape := ⟨3, ![16, 1500, 66]⟩
abbrev S1x1x66 : Shape := ⟨3, ![1, 1, 66]⟩
abbrev S_ : Shape := ⟨0, ![]⟩
abbrev S16x1500 : Shape := ⟨2, ![16, 1500]⟩
abbrev S16x1500x1 : Shape := ⟨3, ![16, 1500, 1]⟩
abbrev S16x1500x64 : Shape := ⟨3, ![16, 1500, 64]⟩
abbrev S16x64x256 : Shape := ⟨3, ![16, 64, 256]⟩
abbrev S16x64 : Shape := ⟨2, ![16, 64]⟩
abbrev S16x64x1 : Shape := ⟨3, ![16, 64, 1]⟩
abbrev S1x64x256 : Shape := ⟨3, ![1, 64, 256]⟩
abbrev S16x16384 : Shape := ⟨2, ![16, 16384]⟩
abbrev S16 : Shape := ⟨1, ![16]⟩
abbrev S16x1 : Shape := ⟨2, ![16, 1]⟩

abbrev nBuf : Space → Nat
  | .hbm => 54
  | .vmem => 0
  | .smem => 0
  | _ => 0

abbrev bufTy : (tb : Table) → Fin (tcTables nBuf tb) → BufTy
  | .hbm, ⟨0, _⟩ => ⟨S16x256x1500, .f32⟩
  | .hbm, ⟨1, _⟩ => ⟨S64x256, .f32⟩
  | .hbm, ⟨2, _⟩ => ⟨S66x256, .f32⟩
  | .hbm, ⟨3, _⟩ => ⟨S66, .f32⟩
  | .hbm, ⟨4, _⟩ => ⟨S16x1500x256, .f32⟩
  | .hbm, ⟨5, _⟩ => ⟨S16x1500x66, .f32⟩
  | .hbm, ⟨6, _⟩ => ⟨S1x1x66, .f32⟩
  | .hbm, ⟨7, _⟩ => ⟨S16x1500x66, .f32⟩
  | .hbm, ⟨8, _⟩ => ⟨S16x1500x66, .f32⟩
  | .hbm, ⟨9, _⟩ => ⟨S_, .f32⟩
  | .hbm, ⟨10, _⟩ => ⟨S16x1500, .f32⟩
  | .hbm, ⟨11, _⟩ => ⟨S_, .f32⟩
  | .hbm, ⟨12, _⟩ => ⟨S16x1500, .f32⟩
  | .hbm, ⟨13, _⟩ => ⟨S16x1500, .f32⟩
  | .hbm, ⟨14, _⟩ => ⟨S16x1500x1, .f32⟩
  | .hbm, ⟨15, _⟩ => ⟨S16x1500x66, .f32⟩
  | .hbm, ⟨16, _⟩ => ⟨S16x1500x66, .f32⟩
  | .hbm, ⟨17, _⟩ => ⟨S16x1500x66, .f32⟩
  | .hbm, ⟨18, _⟩ => ⟨S_, .f32⟩
  | .hbm, ⟨19, _⟩ => ⟨S16x1500, .f32⟩
  | .hbm, ⟨20, _⟩ => ⟨S16x1500x1, .f32⟩
  | .hbm, ⟨21, _⟩ => ⟨S16x1500x66, .f32⟩
  | .hbm, ⟨22, _⟩ => ⟨S16x1500x66, .f32⟩
  | .hbm, ⟨23, _⟩ => ⟨S16x1500x64, .f32⟩
  | .hbm, ⟨24, _⟩ => ⟨S16x64x256, .f32⟩
  | .hbm, ⟨25, _⟩ => ⟨S_, .f32⟩
  | .hbm, ⟨26, _⟩ => ⟨S16x64, .f32⟩
  | .hbm, ⟨27, _⟩ => ⟨S16x64x1, .f32⟩
  | .hbm, ⟨28, _⟩ => ⟨S1x64x256, .f32⟩
  | .hbm, ⟨29, _⟩ => ⟨S16x64x256, .f32⟩
  | .hbm, ⟨30, _⟩ => ⟨S16x64x256, .f32⟩
  | .hbm, ⟨31, _⟩ => ⟨S16x64x256, .f32⟩
  | .hbm, ⟨32, _⟩ => ⟨S16x64x256, .f32⟩
  | .hbm, ⟨33, _⟩ => ⟨S16x64x256, .f32⟩
  | .hbm, ⟨34, _⟩ => ⟨S_, .f32⟩
  | .hbm, ⟨35, _⟩ => ⟨S16x64, .f32⟩
  | .hbm, ⟨36, _⟩ => ⟨S16x64x1, .f32⟩
  | .hbm, ⟨37, _⟩ => ⟨S16x64x1, .f32⟩
  | .hbm, ⟨38, _⟩ => ⟨S_, .f32⟩
  | .hbm, ⟨39, _⟩ => ⟨S16x64x1, .f32⟩
  | .hbm, ⟨40, _⟩ => ⟨S16x64x1, .f32⟩
  | .hbm, ⟨41, _⟩ => ⟨S16x64x256, .f32⟩
  | .hbm, ⟨42, _⟩ => ⟨S16x64x256, .f32⟩
  | .hbm, ⟨43, _⟩ => ⟨S16x16384, .f32⟩
  | .hbm, ⟨44, _⟩ => ⟨S16x16384, .f32⟩
  | .hbm, ⟨45, _⟩ => ⟨S_, .f32⟩
  | .hbm, ⟨46, _⟩ => ⟨S16, .f32⟩
  | .hbm, ⟨47, _⟩ => ⟨S16x1, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S16x16384, .f32⟩
  | .hbm, ⟨53, _⟩ => ⟨S16x16384, .f32⟩
  | _, _ => ⟨S16x256x1500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  transposes_S16x256x1500_S16x1500x256_0_2_1 : S16x256x1500.Transposes [0, 2, 1] S16x1500x256
  bcast_S66_S1x1x66_2 : S66.BroadcastsInDim S1x1x66 (![2] : Fin 1 → Fin S1x1x66.rank)
  bcast_S1x1x66_S16x1500x66_0_1_2 : S1x1x66.BroadcastsInDim S16x1500x66 (![0, 1, 2] : Fin 3 → Fin S16x1500x66.rank)
  reducesTo_S16x1500x66_S16x1500_d2 : S16x1500x66.ReducesTo [2] S16x1500
  h_S_ : 0 < S_.numel
  bcast_S_S16x1500 : S_.BroadcastsInDim S16x1500 (![] : Fin 0 → Fin S16x1500.rank)
  bcast_S16x1500_S16x1500x1_0_1 : S16x1500.BroadcastsInDim S16x1500x1 (![0, 1] : Fin 2 → Fin S16x1500x1.rank)
  bcast_S16x1500x1_S16x1500x66_0_1_2 : S16x1500x1.BroadcastsInDim S16x1500x66 (![0, 1, 2] : Fin 3 → Fin S16x1500x66.rank)
  slices_S16x1500x66_S16x1500x64_0_0_0 : S16x1500x66.Slices ![0, 0, 0] S16x1500x64
  reducesTo_S16x1500x64_S16x64_d1 : S16x1500x64.ReducesTo [1] S16x64
  bcast_S16x64_S16x64x1_0_1 : S16x64.BroadcastsInDim S16x64x1 (![0, 1] : Fin 2 → Fin S16x64x1.rank)
  bcast_S64x256_S1x64x256_1_2 : S64x256.BroadcastsInDim S1x64x256 (![1, 2] : Fin 2 → Fin S1x64x256.rank)
  bcast_S16x64x1_S16x64x256_0_1_2 : S16x64x1.BroadcastsInDim S16x64x256 (![0, 1, 2] : Fin 3 → Fin S16x64x256.rank)
  bcast_S1x64x256_S16x64x256_0_1_2 : S1x64x256.BroadcastsInDim S16x64x256 (![0, 1, 2] : Fin 3 → Fin S16x64x256.rank)
  reducesTo_S16x64x256_S16x64_d2 : S16x64x256.ReducesTo [2] S16x64
  bcast_S_S16x64x1 : S_.BroadcastsInDim S16x64x1 (![] : Fin 0 → Fin S16x64x1.rank)
  shapeCasts_S16x64x256_S16x16384 : S16x64x256.ShapeCasts S16x16384
  reducesTo_S16x16384_S16_d1 : S16x16384.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x16384_0_1 : S16x1.BroadcastsInDim S16x16384 (![0, 1] : Fin 2 → Fin S16x16384.rank)
  dot_S16x1500x256_S66x256_S16x1500x66_2_1_01_0_n_n_wf : DotDims.WF S16x1500x256 S66x256 S16x1500x66 [2] [1] [0, 1] [0] [] []
  dot_S16x1500x64_S16x1500x256_S16x64x256_1_1_2_2_0_0_wf : DotDims.WF S16x1500x64 S16x1500x256 S16x64x256 [1] [1] [2] [2] [0] [0]

variable [Facts₀]

def dot_S16x1500x256_S66x256_S16x1500x66_2_1_01_0_n_n : DotDims S16x1500x256 S66x256 S16x1500x66 where
  lhsContracting := [2]
  rhsContracting := [1]
  lhsNonContracting := [0, 1]
  rhsNonContracting := [0]
  lhsBatch := []
  rhsBatch := []
  wf := dot_S16x1500x256_S66x256_S16x1500x66_2_1_01_0_n_n_wf
def dot_S16x1500x64_S16x1500x256_S16x64x256_1_1_2_2_0_0 : DotDims S16x1500x64 S16x1500x256 S16x64x256 where
  lhsContracting := [1]
  rhsContracting := [1]
  lhsNonContracting := [2]
  rhsNonContracting := [2]
  lhsBatch := [0]
  rhsBatch := [0]
  wf := dot_S16x1500x64_S16x1500x256_S16x64x256_1_1_2_2_0_0_wf

class Facts : Prop extends Facts₀ where

variable [Facts]
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.Spec.lean ====
/-
  The soft-assignment residual descriptor of a batch of utterances, as one function of the four argument arrays,
  on the extended reals.

  One utterance is a feature-major matrix x (256 features × 1500 frames). With weights w (66 × 256), biases b (66)
  and centroids cen (64 × 256):

    logit c t    = (∑ f, w c f · x f t) + b c                      66 clusters (64 kept, 2 discarded) × frames
    peak t       = max −∞ (the fold of max from −∞ over c of logit c t)
    expo c t     = exp (logit c t − peak t)
    mass t       = ∑ c, expo c t
    weight c t   = expo c t / mass t                                the soft assignment of frame t to cluster c
    occupancy c  = ∑ t, weight c t                                  for the 64 kept clusters
    residual c f = (∑ t, weight c t · x f t) − occupancy c · cen c f
    rowNorm c    = max (√ ∑ f, residual c f ²) ε
    intra c f    = residual c f / rowNorm c                         each cluster's row scaled to unit length
    energy       = ∑ c, ∑ f, intra c f ²
    totalNorm    = max (√ energy) ε
    descriptor c f = intra c f / totalNorm                          the whole 64 × 256 block scaled to unit length

  The result array lists, for each utterance, its block row after row: entry (u, 256·c + f) is the descriptor of
  utterance u at (c, f). Division, square root and exponential are the extended reals' total ones; −∞ and ε stand for
  two fixed 32-bit words whose values are never needed.

  One law is proved here: a sum over the 16384 positions of a block listed row after row is the sum over its rows of
  the sums over each row. It holds in any commutative additive monoid, so on the extended reals with no finiteness.
-/
import Idealize.ShloMosaic.PureOps.Ideal
import Idealize.ShloMosaic.Lib.ValueIdx
import Idealize.ShloMosaic.Lib.Pipeline.Value
import proofs.«153737_j53171695125185_1_alg».proof.Proof.LibTileSum

noncomputable section

open scoped BigOperators

namespace Cert.Vlad

open Idealize.ShloMosaic Idealize.ShloMosaic.ValueIdx

/-- The word a running maximum starts from (the f32 pattern of −∞). -/
abbrev bottom : EReal := Ideal.ofBits .f32 0xFF800000#32
/-- The floor under both norms (the f32 pattern nearest 10⁻¹²). -/
abbrev tiny : EReal := Ideal.ofBits .f32 0x2B8CBCCC#32

/-! ## One utterance, stage by stage

Each stage is a function of the matrix the stage before it produced, so that a program's stages can be matched
one at a time. -/

section OneUtterance

/-- The affine score of frame `t` for cluster `c`. -/
def logit (x : Fin 256 → Fin 1500 → EReal) (w : Fin 66 → Fin 256 → EReal) (b : Fin 66 → EReal)
    (c : Fin 66) (t : Fin 1500) : EReal := (∑ f : Fin 256, w c f * x f t) + b c

variable (l : Fin 66 → Fin 1500 → EReal)

/-- The largest score of frame `t`: the maximum taken from −∞, and once more against −∞. -/
def peak (t : Fin 1500) : EReal := max bottom ((Finset.univ : Finset (Fin 66)).fold max bottom fun c => l c t)

/-- The shifted exponential of a score. -/
def expo (c : Fin 66) (t : Fin 1500) : EReal := Ideal.exp (l c t - peak l t)

/-- The sum of frame `t`'s shifted exponentials over all 66 clusters. -/
def mass (t : Fin 1500) : EReal := ∑ c : Fin 66, expo l c t

/-- The soft assignment of frame `t` to cluster `c`. -/
def weight (c : Fin 66) (t : Fin 1500) : EReal := Ideal.div (expo l c t) (mass l t)

/-- A kept cluster among all 66: the first 64 are kept. -/
def kept (c : Fin 64) : Fin 66 := ⟨c.val, by have := c.isLt; omega⟩

variable (a : Fin 64 → Fin 1500 → EReal) (x : Fin 256 → Fin 1500 → EReal) (cen : Fin 64 → Fin 256 → EReal)

/-- The total weight cluster `c` receives over the frames. -/
def occupancy (c : Fin 64) : EReal := ∑ t : Fin 1500, a c t

/-- The weighted sum of the frames' features less the occupancy times the centroid. -/
def residual (c : Fin 64) (f : Fin 256) : EReal := (∑ t : Fin 1500, a c t * x f t) - occupancy a c * cen c f

variable (r : Fin 64 → Fin 256 → EReal)

/-- The sum of squares of a row. -/
def rowEnergy (c : Fin 64) : EReal := ∑ f : Fin 256, r c f * r c f

/-- The length of a row, floored. -/
def rowNorm (c : Fin 64) : EReal := max (Ideal.sqrt (rowEnergy r c)) tiny

/-- A row scaled by its length. -/
def intra (c : Fin 64) (f : Fin 256) : EReal := Ideal.div (r c f) (rowNorm r c)

/-- The sum of squares of a whole block, row by row. -/
def energy : EReal := ∑ c : Fin 64, rowEnergy r c

/-- The length of a whole block, floored. -/
def totalNorm : EReal := max (Ideal.sqrt (energy r)) tiny

/-- A block scaled by its length. -/
def descriptor (c : Fin 64) (f : Fin 256) : EReal := Ideal.div (r c f) (totalNorm r)

end OneUtterance

/-- The kept clusters' soft assignments of one utterance. -/
def assigned (x : Fin 256 → Fin 1500 → EReal) (w : Fin 66 → Fin 256 → EReal) (b : Fin 66 → EReal) :
    Fin 64 → Fin 1500 → EReal := fun c t => weight (logit x w b) (kept c) t

/-- One utterance's residual block with every row scaled to unit length. -/
def scaled (x : Fin 256 → Fin 1500 → EReal) (w : Fin 66 → Fin 256 → EReal) (b : Fin 66 → EReal)
    (cen : Fin 64 → Fin 256 → EReal) : Fin 64 → Fin 256 → EReal := intra (residual (assigned x w b) x cen)

/-! ## A block listed row after row -/

/-- A sum over the 16384 positions of a 64 × 256 block listed row after row — position `k` is row `k / 256`, column
    `k % 256` — is the sum over the rows of the sums over each row. -/
theorem sum_positions (g : Fin 64 → Fin 256 → EReal) :
    ∑ k : Fin 16384, g ⟨k.val / 256, by have := k.isLt; omega⟩ ⟨k.val % 256, Nat.mod_lt _ (by decide)⟩
      = ∑ c : Fin 64, ∑ f : Fin 256, g c f := by
  refine (Cert.Lib.TileSum.sum_tiles (A := 64) (B := 256) (N := 16384) rfl
    (fun k => g ⟨k.val / 256, by have := k.isLt; omega⟩ ⟨k.val % 256, Nat.mod_lt _ (by decide)⟩)).symm.trans ?_
  refine Finset.sum_congr rfl fun c _ => Finset.sum_congr rfl fun f _ => ?_
  have hc : (256 * c.val + f.val) / 256 = c.val := by have := f.isLt; omega
  have hf : (256 * c.val + f.val) % 256 = f.val := by have := f.isLt; omega
  exact congrArg₂ g (Fin.ext hc) (Fin.ext hf)

/-! ## The arrays -/

/-- The utterances: 16 × 256 features × 1500 frames. -/
abbrev SX : Shape := ⟨3, ![16, 256, 1500]⟩
/-- The centroids: 64 × 256. -/
abbrev SC : Shape := ⟨2, ![64, 256]⟩
/-- The weights: 66 × 256. -/
abbrev SW : Shape := ⟨2, ![66, 256]⟩
/-- The biases: 66. -/
abbrev SB : Shape := ⟨1, ![66]⟩
/-- The blocks, one per utterance: 16 × 64 × 256. -/
abbrev SR : Shape := ⟨3, ![16, 64, 256]⟩
/-- The result, each block listed row after row: 16 × 16384. -/
abbrev SO : Shape := ⟨2, ![16, 16384]⟩

variable (X : SX.Idx → EReal) (C : SC.Idx → EReal) (W : SW.Idx → EReal) (B : SB.Idx → EReal)

/-- Utterance `u` of the batch as a matrix. -/
def utt (u : Fin 16) : Fin 256 → Fin 1500 → EReal := fun f t => X (ix3 u f t)
/-- A two-axis array as a matrix. -/
def rows {a b : ℕ} (A : (⟨2, ![a, b]⟩ : Shape).Idx → EReal) : Fin a → Fin b → EReal := fun i j => A (ix2 i j)
/-- A one-axis array as a vector. -/
def entries {n : ℕ} (v : (⟨1, ![n]⟩ : Shape).Idx → EReal) : Fin n → EReal := fun i => v (ix1 i)

/-- The descriptor of utterance `u` at cluster `c`, feature `f`. -/
def D (u : Fin 16) (c : Fin 64) (f : Fin 256) : EReal :=
  descriptor (scaled (utt X u) (rows W) (entries B) (rows C)) c f

/-- The scaled residual of utterance `u` at cluster `c`, feature `f`, before the block's own scaling. -/
def I (u : Fin 16) (c : Fin 64) (f : Fin 256) : EReal :=
  scaled (utt X u) (rows W) (entries B) (rows C) c f

/-- The array of blocks. -/
def region : SR.Idx → EReal := fun i =>
  D X C W B ⟨(i 0).val, (i 0).isLt⟩ ⟨(i 1).val, (i 1).isLt⟩ ⟨(i 2).val, (i 2).isLt⟩

theorem region_ix3 (u : Fin 16) (c : Fin 64) (f : Fin 256) : region X C W B (ix3 u c f) = D X C W B u c f := rfl

/-- The result: the array of blocks with each block listed row after row (a re-laying that keeps row-major positions). -/
def result (h : SR.ShapeCasts SO) : SO.Idx → EReal := shapeCast SO (region X C W B) h

end Cert.Vlad

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.LibMatmulNT.lean ====
/-
  A matrix product with the right operand contracted on its LAST axis, read at an index, at the ideal values.

  For an M×K matrix A and an N×K matrix B, the product that contracts axis 1 of both (dimension numbers
  [1], [1], [0], [0], no batch axis: A · Bᵀ) has at (a, b) the entry

      acc (a, b) + ∑ c < K, A (a, c) · B (b, c)

  on the extended reals, and just the sum when the accumulator is the zero splat. The index of the contraction is
  the one coordinate c; the operand indices at output (a, b) and contraction position c are (a, c) and (b, c).
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

variable {M K N : Nat}

/-- The left operand's index at output (a, b) and contraction position c is (a, c). -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have c2 := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact c2

/-- The right operand's index at output (a, b) and contraction position c is (b, c). -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have c2 := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A · Bᵀ accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![N, K]⟩ φ₂) (acc : FVec Ideal ⟨2, ![M, N]⟩ .f32) (a : Fin M) (b : Fin N) :
    FloatOps.matmul (DotDims.transposedRhs M K N) prec A B acc (ix2 a b)
      = acc (ix2 a b) + ∑ c : Fin K, A (ix2 a c) * B (ix2 b c) := by
  rw [Ideal.matmul_apply, ← Equiv.sum_comp (contrEquiv1 (DotDims.transposedRhs M K N) K rfl rfl).symm]
  refine congrArg (acc (ix2 a b) + ·) (Finset.sum_congr rfl fun c _ => ?_)
  rw [lhsIdx_transposedRhs, rhsIdx_transposedRhs]

/-- A · Bᵀ into the zero splat, at (a, b): the sum over the contracted coordinate. -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.MatmulNT

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.KernelBody.lean ====
/-
  What one grid point computes, stage by stage, and each stage read at an index on the extended reals.

  A grid point sees one utterance as a [1, 256, 1500] block, the weights [66, 256], the biases as a column [66, 1]
  and the centroids [64, 256], and stores a [1, 64, 256] block. Its arithmetic is cut here into the stages of the
  specification — frames, scores, soft assignments, the kept rows, residuals, rows scaled to unit length, the block
  scaled to unit length — each a function of the stage before it, and their composition is the body's stored value
  by unfolding. Then each stage is read at an index:

  * the scores are a plain matrix product into a zero accumulator plus a column repeated along the frames;
  * a column statistic (a maximum or a sum over the 66 clusters) is a vector over the frames, re-laid as one row and
    repeated down the clusters: at (c, t) it is the vector's entry t;
  * a row statistic (a sum over the frames or over the features) is a vector over the 64 clusters, re-laid as a column
    and repeated along the features: at (c, f) it is the vector's entry c;
  * the aggregation is a product with the right operand contracted on its last axis;
  * rounding to a narrower format is the identity on the extended reals.
-/
import proofs.«153737_j53171695125185_1_alg».proof.Proof.Gen.KernelIdeal.Skeleton
import proofs.«153737_j53171695125185_1_alg».proof.Proof.Spec
import proofs.«153737_j53171695125185_1_alg».proof.Proof.LibColumn
import proofs.«153737_j53171695125185_1_alg».proof.Proof.LibMatmulNT
import proofs.«153737_j53171695125185_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.SL.Sem

/-! ## The stages -/

section Stages

variable {F : FTy → Type} [FloatOps F]

/-- The utterance's block as a 256 × 1500 matrix, rounded for the products. -/
def framesV (v0 : Vec F S1x256x1500 .f32) : FVec F S256x1500 .bf16 :=
  truncf .bf16 (shapeCast S256x1500 v0 shapeCasts_S1x256x1500_S256x1500) bitsLt_bf16_f32

/-- The scores: weights times frames into a zero accumulator, plus the bias column repeated along the frames. -/
def scoreV (v0 : Vec F S1x256x1500 .f32) (v3 : Vec F S66x256 .f32) (v5 : Vec F S66x1 .f32) : FVec F S66x1500 .f32 :=
  addf (matmul dot_S66x256_S256x1500_S66x1500_1_0_0_1_n_n none (truncf .bf16 v3 bitsLt_bf16_f32) (framesV v0)
      (constant S66x1500 .f32 0x00000000#32))
    (broadcastTo S66x1500 (shapeCast S66x1 v5 shapeCasts_S66x1_S66x1) broadcasts_S66x1_S66x1500)

/-- A vector over the frames re-laid as one row and repeated down the 66 clusters. -/
def downV (v : FVec F S1500 .f32) : FVec F S66x1500 .f32 :=
  broadcastTo S66x1500 (shapeCast S1x1500 v shapeCasts_S1500_S1x1500) broadcasts_S1x1500_S66x1500

/-- Each frame's largest score: the maximum over the clusters from −∞, once more against −∞. -/
def peakV (v9 : FVec F S66x1500 .f32) : FVec F S1500 .f32 :=
  maximumf (broadcast S1500 (Scalar.ofBits .f32 0xFF800000#32))
    (multiReduction .maximumf [0] S1500 v9 0xFF800000#32 reduces_S66x1500_S1500 (.inl rfl) rfl)

/-- The shifted exponentials. -/
def expoV (v9 : FVec F S66x1500 .f32) : FVec F S66x1500 .f32 := exp (subf v9 (downV (peakV v9)))

/-- Each frame's sum over the clusters. -/
def massV (v16 : FVec F S66x1500 .f32) : FVec F S1500 .f32 :=
  multiReduction .add [0] S1500 v16 0x00000000#32 reduces_S66x1500_S1500 (.inl rfl) rfl

/-- The soft assignments of all 66 clusters. -/
def softV (v9 : FVec F S66x1500 .f32) : FVec F S66x1500 .f32 := divf (expoV v9) (downV (massV (expoV v9)))

/-- The first 64 rows. -/
def keptV (v20 : FVec F S66x1500 .f32) : FVec F S64x1500 .f32 :=
  extractStridedSlice S64x1500 ![0, 0] v20 slices_S66x1500_o0_0_S64x1500

/-- A vector over the 64 clusters re-laid as a column. -/
def colV (v : FVec F S64 .f32) : FVec F S64x1 .f32 := shapeCast S64x1 v shapeCasts_S64_S64x1

/-- A column repeated along the 256 features. -/
def alongV (v : FVec F S64x1 .f32) : FVec F S64x256 .f32 := broadcastTo S64x256 v broadcasts_S64x1_S64x256

/-- Each kept cluster's total weight over the frames, as a column. -/
def occV (v21 : FVec F S64x1500 .f32) : FVec F S64x1 .f32 :=
  colV (multiReduction .add [1] S64 v21 0x00000000#32 reduces_S64x1500_S64 (.inl rfl) rfl)

/-- The residuals: assignments times framesᵀ into a zero accumulator, less the occupancy times the centroids. -/
def residV (v21 : FVec F S64x1500 .f32) (v2 : FVec F S256x1500 .bf16) (v26 : Vec F S64x256 .f32) : FVec F S64x256 .f32 :=
  subf (matmul dot_S64x1500_S256x1500_S64x256_1_1_0_0_n_n none (truncf .bf16 v21 bitsLt_bf16_f32) v2
      (constant S64x256 .f32 0x00000000#32))
    (mulf (alongV (occV v21)) v26)

/-- Each row's sum of squares, as a column. -/
def rowEnergyV (v : FVec F S64x256 .f32) : FVec F S64x1 .f32 :=
  colV (multiReduction .add [1] S64 (mulf v v) 0x00000000#32 reduces_S64x256_S64 (.inl rfl) rfl)

/-- Each row divided by its floored length. -/
def intraV (v29 : FVec F S64x256 .f32) : FVec F S64x256 .f32 :=
  divf v29 (alongV (maximumf (sqrt (rowEnergyV v29)) (broadcast S64x1 (Scalar.ofBits .f32 0x2B8CBCCC#32))))

/-- The row-scaled block of one grid point, from its four loaded blocks. -/
def scaledV (v0 : Vec F S1x256x1500 .f32) (v3 : Vec F S66x256 .f32) (v5 : Vec F S66x1 .f32) (v26 : Vec F S64x256 .f32) :
    FVec F S64x256 .f32 :=
  intraV (residV (keptV (softV (scoreV v0 v3 v5))) (framesV v0) v26)

/-- The body's first carried value is the row-scaled block … -/
theorem pay2_eq (v0 : Vec F S1x256x1500 .f32) (v3 : Vec F S66x256 .f32) (v5 : Vec F S66x1 .f32) (v26 : Vec F S64x256 .f32) :
    k0_pay2 v0 v3 v5 v26 = scaledV v0 v3 v5 v26 := rfl

/-- … and its second the column of that block's row sums of squares. -/
theorem pay3_eq (v0 : Vec F S1x256x1500 .f32) (v3 : Vec F S66x256 .f32) (v5 : Vec F S66x1 .f32) (v26 : Vec F S64x256 .f32) :
    k0_pay3 v0 v3 v5 v26 = rowEnergyV (scaledV v0 v3 v5 v26) := rfl

/-- The one-entry sum of the column of row sums, as a 1 × 1 matrix. -/
def energyV (v40 : FVec F S64x1 .f32) : FVec F S1x1 .f32 :=
  shapeCast S1x1 (multiReduction .add [0] S1 v40 0x00000000#32 reduces_S64x1_S1 (.inl rfl) rfl) shapeCasts_S1_S1x1

/-- The stored block: the row-scaled block divided by its floored length, with a leading unit axis. -/
def blockV (v37 : FVec F S64x256 .f32) (v40 : FVec F S64x1 .f32) : FVec F S1x64x256 .f32 :=
  shapeCast S1x64x256
    (divf v37 (broadcastTo S64x256 (maximumf (sqrt (energyV v40)) (broadcast S1x1 (Scalar.ofBits .f32 0x2B8CBCCC#32)))
      broadcasts_S1x1_S64x256))
    shapeCasts_S64x256_S1x64x256

/-- The body's stored value is that block. -/
theorem pay1_eq (v37 : FVec F S64x256 .f32) (v40 : FVec F S64x1 .f32) : k0_pay1 v37 v40 = blockV v37 v40 := rfl

end Stages

/-! ## The stages read at an index, on the extended reals -/

section AtIdeal

/-- A vector over the frames, as one row repeated down the clusters, reads its entry `t` at `(c, t)`. -/
theorem downV_apply (v : FVec Ideal S1500 .f32) (c : Fin 66) (t : Fin 1500) : downV v (ix2 c t) = v (ix1 t) := by
  unfold downV
  exact (broadcastTo_1b_ab_apply _ broadcasts_S1x1500_S66x1500 c t).trans
    (shapeCast_a_1a_apply v shapeCasts_S1500_S1x1500 (0 : Fin 1) t)

/-- A vector over the clusters as a column reads its entry `c` at `(c, 0)`. -/
theorem colV_apply (v : FVec Ideal S64 .f32) (c : Fin 64) (u : Fin 1) : colV v (ix2 c u) = v (ix1 c) := by
  unfold colV
  exact Cert.Lib.Column.shapeCast_a_a1_apply v shapeCasts_S64_S64x1 c u

/-- A column repeated along the features reads its entry `c` at `(c, f)`. -/
theorem alongV_apply (v : FVec Ideal S64x1 .f32) (c : Fin 64) (f : Fin 256) :
    alongV v (ix2 c f) = v (ix2 c (0 : Fin 1)) := by
  unfold alongV
  exact Cert.Lib.Column.broadcastTo_a1_ab_apply v broadcasts_S64x1_S64x256 c f

/-- The scores at `(c, t)`: the sum over the features of weight times frame, plus the bias. -/
theorem scoreV_apply (v0 : Vec Ideal S1x256x1500 .f32) (v3 : Vec Ideal S66x256 .f32) (v5 : Vec Ideal S66x1 .f32)
    (c : Fin 66) (t : Fin 1500) :
    scoreV v0 v3 v5 (ix2 c t)
      = Vlad.logit (fun f t => v0 (ix3 (0 : Fin 1) f t)) (fun c f => v3 (ix2 c f)) (fun c => v5 (ix2 c (0 : Fin 1))) c t := by
  unfold scoreV Vlad.logit
  rw [addf_apply]
  refine congrArg₂ (· + ·) ?_ ?_
  · refine (MatmulNN.matmul_zero_apply (M := 66) (K := 256) (N := 1500) none (truncf .bf16 v3 bitsLt_bf16_f32)
      (framesV v0) c t).trans ?_
    refine Finset.sum_congr rfl fun f _ => ?_
    show v3 (ix2 c f) * shapeCast S256x1500 v0 shapeCasts_S1x256x1500_S256x1500 (ix2 f t) = _
    rw [shapeCast_1ab_ab_apply]
  · refine (Cert.Lib.Column.broadcastTo_a1_ab_apply _ broadcasts_S66x1_S66x1500 c t).trans ?_
    rw [shapeCast_self]

/-- Each frame's largest score is the specification's peak of the scores. -/
theorem peakV_apply (l : FVec Ideal S66x1500 .f32) (t : Fin 1500) :
    peakV l (ix1 t) = Vlad.peak (fun c t => l (ix2 c t)) t := by
  unfold peakV Vlad.peak
  show max (Ideal.ofBits .f32 0xFF800000#32)
    (multiReduction .maximumf [0] S1500 l 0xFF800000#32 reduces_S66x1500_S1500 (.inl rfl) rfl (ix1 t)) = _
  refine congrArg (max _) ?_
  refine (Ideal.multiReduction_maximumf_single l 0xFF800000#32 reduces_S66x1500_S1500 (.inl rfl) rfl (ix1 t)).trans ?_
  show (Finset.univ : Finset (Fin 66)).fold max (Ideal.ofBits .f32 0xFF800000#32)
    (fun c => l (reduces_S66x1500_S1500.lift (ix1 t) c)) = _
  refine congrArg (fun g => (Finset.univ : Finset (Fin 66)).fold max (Ideal.ofBits .f32 0xFF800000#32) g) ?_
  funext c
  exact congrArg l (funext fun a => Fin.ext (by match a with | ⟨0, _⟩ => rfl | ⟨1, _⟩ => rfl))

/-- Each frame's sum over the clusters. -/
theorem massV_apply (e : FVec Ideal S66x1500 .f32) (t : Fin 1500) : massV e (ix1 t) = ∑ c : Fin 66, e (ix2 c t) := by
  unfold massV
  refine (Ideal.multiReduction_add_single e 0x00000000#32 reduces_S66x1500_S1500 (.inl rfl) rfl (ix1 t)).trans ?_
  show ∑ c : Fin 66, e (reduces_S66x1500_S1500.lift (ix1 t) c) = _
  exact Finset.sum_congr rfl fun c _ =>
    congrArg e (funext fun a => Fin.ext (by match a with | ⟨0, _⟩ => rfl | ⟨1, _⟩ => rfl))

/-- The shifted exponentials. -/
theorem expoV_apply (l : FVec Ideal S66x1500 .f32) (c : Fin 66) (t : Fin 1500) :
    expoV l (ix2 c t) = Vlad.expo (fun c t => l (ix2 c t)) c t := by
  unfold expoV Vlad.expo
  show Ideal.exp (l (ix2 c t) - downV (peakV l) (ix2 c t)) = _
  rw [downV_apply, peakV_apply]

/-- The soft assignments. -/
theorem softV_apply (l : FVec Ideal S66x1500 .f32) (c : Fin 66) (t : Fin 1500) :
    softV l (ix2 c t) = Vlad.weight (fun c t => l (ix2 c t)) c t := by
  unfold softV Vlad.weight Vlad.mass
  show Ideal.div (expoV l (ix2 c t)) (downV (massV (expoV l)) (ix2 c t)) = _
  rw [downV_apply, massV_apply, expoV_apply]
  exact congrArg (Ideal.div _) (Finset.sum_congr rfl fun c' _ => expoV_apply l c' t)

/-- The kept rows are the first 64. -/
theorem keptV_apply (a : FVec Ideal S66x1500 .f32) (c : Fin 64) (t : Fin 1500) :
    keptV a (ix2 c t) = a (ix2 (Vlad.kept c) t) := by
  unfold keptV
  exact slice2_axis0_apply 0 a slices_S66x1500_o0_0_S64x1500 c t (Vlad.kept c) (Nat.zero_add _).symm

/-- Each kept cluster's total weight over the frames. -/
theorem occV_apply (a : FVec Ideal S64x1500 .f32) (c : Fin 64) (u : Fin 1) :
    occV a (ix2 c u) = Vlad.occupancy (fun c t => a (ix2 c t)) c := by
  unfold occV Vlad.occupancy
  rw [colV_apply]
  refine (Ideal.multiReduction_add_single a 0x00000000#32 reduces_S64x1500_S64 (.inl rfl) rfl (ix1 c)).trans ?_
  show ∑ t : Fin 1500, a (reduces_S64x1500_S64.lift (ix1 c) t) = _
  exact Finset.sum_congr rfl fun t _ =>
    congrArg a (funext fun ax => Fin.ext (by match ax with | ⟨0, _⟩ => rfl | ⟨1, _⟩ => rfl))

/-- The residuals. -/
theorem residV_apply (a : FVec Ideal S64x1500 .f32) (xm : FVec Ideal S256x1500 .bf16) (cen : Vec Ideal S64x256 .f32)
    (c : Fin 64) (f : Fin 256) :
    residV a xm cen (ix2 c f)
      = Vlad.residual (fun c t => a (ix2 c t)) (fun f t => xm (ix2 f t)) (fun c f => cen (ix2 c f)) c f := by
  unfold residV Vlad.residual
  show matmul dot_S64x1500_S256x1500_S64x256_1_1_0_0_n_n none (truncf .bf16 a bitsLt_bf16_f32) xm
      (constant S64x256 .f32 0x00000000#32) (ix2 c f) - alongV (occV a) (ix2 c f) * cen (ix2 c f) = _
  rw [alongV_apply, occV_apply]
  refine congrArg (· - _) ?_
  exact MatmulNT.matmul_zero_apply (M := 64) (K := 1500) (N := 256) none (truncf .bf16 a bitsLt_bf16_f32) xm c f

/-- Each row's sum of squares. -/
theorem rowEnergyV_apply (r : FVec Ideal S64x256 .f32) (c : Fin 64) (u : Fin 1) :
    rowEnergyV r (ix2 c u) = Vlad.rowEnergy (fun c f => r (ix2 c f)) c := by
  unfold rowEnergyV Vlad.rowEnergy
  rw [colV_apply]
  refine (Ideal.multiReduction_add_single (mulf r r) 0x00000000#32 reduces_S64x256_S64 (.inl rfl) rfl (ix1 c)).trans ?_
  show ∑ f : Fin 256, (mulf r r) (reduces_S64x256_S64.lift (ix1 c) f) = _
  exact Finset.sum_congr rfl fun f _ =>
    congrArg (mulf r r) (funext fun ax => Fin.ext (by match ax with | ⟨0, _⟩ => rfl | ⟨1, _⟩ => rfl))

/-- Each row divided by its floored length. -/
theorem intraV_apply (r : FVec Ideal S64x256 .f32) (c : Fin 64) (f : Fin 256) :
    intraV r (ix2 c f) = Vlad.intra (fun c f => r (ix2 c f)) c f := by
  unfold intraV Vlad.intra Vlad.rowNorm
  show Ideal.div (r (ix2 c f))
    (alongV (maximumf (sqrt (rowEnergyV r)) (broadcast S64x1 (Scalar.ofBits .f32 0x2B8CBCCC#32))) (ix2 c f)) = _
  rw [alongV_apply]
  show Ideal.div (r (ix2 c f))
    (max (Ideal.sqrt (rowEnergyV r (ix2 c (0 : Fin 1)))) (Ideal.ofBits .f32 0x2B8CBCCC#32)) = _
  rw [rowEnergyV_apply]

/-- The row-scaled block of a grid point is the specification's, of the point's blocks read as matrices. -/
theorem scaledV_apply (v0 : Vec Ideal S1x256x1500 .f32) (v3 : Vec Ideal S66x256 .f32) (v5 : Vec Ideal S66x1 .f32)
    (v26 : Vec Ideal S64x256 .f32) (c : Fin 64) (f : Fin 256) :
    scaledV v0 v3 v5 v26 (ix2 c f)
      = Vlad.scaled (fun f t => v0 (ix3 (0 : Fin 1) f t)) (fun c f => v3 (ix2 c f)) (fun c => v5 (ix2 c (0 : Fin 1)))
          (fun c f => v26 (ix2 c f)) c f := by
  unfold scaledV Vlad.scaled
  rw [intraV_apply]
  refine congrArg (fun r => Vlad.intra r c f) ?_
  funext c' f'
  rw [residV_apply]
  refine congrArg₂ (fun a x => Vlad.residual a x (fun c f => v26 (ix2 c f)) c' f') ?_ ?_
  · funext c'' t
    rw [keptV_apply, softV_apply]
    unfold Vlad.assigned
    refine congrArg (fun l => Vlad.weight l (Vlad.kept c'') t) ?_
    funext c3 t3
    exact scoreV_apply v0 v3 v5 c3 t3
  · funext f'' t
    unfold framesV
    exact shapeCast_1ab_ab_apply v0 shapeCasts_S1x256x1500_S256x1500 f'' t

/-- The one-entry sum of a column. -/
theorem energyV_apply (v40 : FVec Ideal S64x1 .f32) (u u' : Fin 1) :
    energyV v40 (ix2 u u') = ∑ c : Fin 64, v40 (ix2 c (0 : Fin 1)) := by
  unfold energyV
  refine (shapeCast_a_1a_apply _ shapeCasts_S1_S1x1 u u').trans ?_
  refine (Ideal.multiReduction_add_single v40 0x00000000#32 reduces_S64x1_S1 (.inl rfl) rfl (ix1 u')).trans ?_
  show ∑ c : Fin 64, v40 (reduces_S64x1_S1.lift (ix1 u') c) = _
  exact Finset.sum_congr rfl fun c _ =>
    congrArg v40 (funext fun ax => Fin.ext (by
      match ax with
      | ⟨0, _⟩ => rfl
      | ⟨1, _⟩ => exact (Nat.lt_one_iff.mp u'.isLt : u'.val = 0)))

/-- The stored block at `(0, c, f)`: the entry divided by the floored root of the column's sum. -/
theorem blockV_apply (v37 : FVec Ideal S64x256 .f32) (v40 : FVec Ideal S64x1 .f32) (u : Fin 1) (c : Fin 64) (f : Fin 256) :
    blockV v37 v40 (ix3 u c f)
      = Ideal.div (v37 (ix2 c f)) (max (Ideal.sqrt (∑ c' : Fin 64, v40 (ix2 c' (0 : Fin 1)))) Vlad.tiny) := by
  unfold blockV
  refine (shapeCast_ab_1ab_apply _ shapeCasts_S64x256_S1x64x256 u c f).trans ?_
  show Ideal.div (v37 (ix2 c f))
    (broadcastTo S64x256 (maximumf (sqrt (energyV v40)) (broadcast S1x1 (Scalar.ofBits .f32 0x2B8CBCCC#32)))
      broadcasts_S1x1_S64x256 (ix2 c f)) = _
  refine congrArg (Ideal.div _) ?_
  refine (broadcastTo_apply _ broadcasts_S1x1_S64x256 (ix2 c f) (ix2 (0 : Fin 1) (0 : Fin 1))
    (fun ax => by match ax with | ⟨0, _⟩ => rfl | ⟨1, _⟩ => rfl)).trans ?_
  show max (Ideal.sqrt (energyV v40 (ix2 (0 : Fin 1) (0 : Fin 1)))) (Ideal.ofBits .f32 0x2B8CBCCC#32) = _
  rw [energyV_apply]

/-- WHAT A GRID POINT STORES, at `(0, c, f)`: the specification's descriptor of the point's blocks read as matrices. -/
theorem stored_apply (x0 : Vec Ideal S1x256x1500 .f32) (x1 : Vec Ideal S66x256 .f32) (x2 : Vec Ideal S66x1 .f32)
    (x3 : Vec Ideal S64x256 .f32) (u : Fin 1) (c : Fin 64) (f : Fin 256) :
    k0_pay1 (k0_pay2 x0 x1 x2 x3) (k0_pay3 x0 x1 x2 x3) (ix3 u c f)
      = Vlad.descriptor (Vlad.scaled (fun f t => x0 (ix3 (0 : Fin 1) f t)) (fun c f => x1 (ix2 c f))
          (fun c => x2 (ix2 c (0 : Fin 1))) (fun c f => x3 (ix2 c f))) c f := by
  rw [pay1_eq, pay2_eq, pay3_eq, blockV_apply]
  have hs : (fun c f => scaledV x0 x1 x2 x3 (ix2 c f))
      = Vlad.scaled (fun f t => x0 (ix3 (0 : Fin 1) f t)) (fun c f => x1 (ix2 c f))
          (fun c => x2 (ix2 c (0 : Fin 1))) (fun c f => x3 (ix2 c f)) :=
    funext fun c => funext fun f => scaledV_apply x0 x1 x2 x3 c f
  unfold Vlad.descriptor Vlad.totalNorm Vlad.energy
  rw [← hs]
  refine congrArg (fun e => Ideal.div (scaledV x0 x1 x2 x3 (ix2 c f)) (max (Ideal.sqrt e) Vlad.tiny)) ?_
  exact Finset.sum_congr rfl fun c' _ => rowEnergyV_apply (scaledV x0 x1 x2 x3) c' (0 : Fin 1)

end AtIdeal

end Cert.KernelIdeal.Body

end
-- ==== Proof.KernelValue.lean ====
/-
  From what each grid point stores to the program's result array.

  The 16 grid points take one utterance each: point t reads block t of the utterances (whole along the other two
  axes), the whole weights, the whole bias column and the whole centroids, and writes block t of a [16, 64, 256]
  array. Before the region the biases were re-laid from a vector to a column: the vector's entry c sits at (c, 0).
  So block t of the array after the region is the specification's block of utterance t; the 16 blocks cover the
  array; and the program's last step lists each block row after row, which is the specification's re-laying.
-/
import proofs.«153737_j53171695125185_1_alg».proof.Proof.Gen.KernelIdeal.Frame
import proofs.«153737_j53171695125185_1_alg».proof.Proof.KernelBody
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Body Idealize.ShloMosaic Idealize.ShloMosaic.TcCoe
  Idealize.ShloMosaic.ValueIdx Idealize.SL.Sem Idealize.ShloMosaic.StableHlo
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- What a grid point stores, at any index of its block. -/
theorem stored_at (x0 : Vec Ideal S1x256x1500 .f32) (x1 : Vec Ideal S66x256 .f32) (x2 : Vec Ideal S66x1 .f32)
    (x3 : Vec Ideal S64x256 .f32) (y : S1x64x256.Idx) :
    k0_pay1 (k0_pay2 x0 x1 x2 x3) (k0_pay3 x0 x1 x2 x3) y
      = Vlad.descriptor (Vlad.scaled (fun f t => x0 (ix3 (0 : Fin 1) f t)) (fun c f => x1 (ix2 c f))
          (fun c => x2 (ix2 c (0 : Fin 1))) (fun c f => x3 (ix2 c f))) ⟨(y 1).val, (y 1).isLt⟩ ⟨(y 2).val, (y 2).isLt⟩ := by
  obtain ⟨u, c, f, rfl⟩ : ∃ (u : Fin 1) (c : Fin 64) (f : Fin 256), y = ix3 u c f := ⟨y 0, y 1, y 2, eq_ix3 y⟩
  exact stored_apply x0 x1 x2 x3 u c f

/-- A block entry computed from inputs that are one utterance's, and the whole of the other three arrays, is the
    array of blocks at the index with that utterance and those coordinates. -/
theorem region_of_block (X : Vlad.SX.Idx → EReal) (C : Vlad.SC.Idx → EReal) (W : Vlad.SW.Idx → EReal) (B : Vlad.SB.Idx → EReal)
    {x : Fin 256 → Fin 1500 → EReal} {w : Fin 66 → Fin 256 → EReal} {b : Fin 66 → EReal} {cen : Fin 64 → Fin 256 → EReal}
    (u : Fin 16) (c : Fin 64) (f : Fin 256) (i : Vlad.SR.Idx)
    (hx : x = Vlad.utt X u) (hw : w = Vlad.rows W) (hb : b = Vlad.entries B) (hcen : cen = Vlad.rows C)
    (hu : (i 0).val = u.val) (hc : (i 1).val = c.val) (hf : (i 2).val = f.val) :
    Vlad.descriptor (Vlad.scaled x w b cen) c f = Vlad.region X C W B i := by
  subst hx hw hb hcen
  have e0 : (⟨(i 0).val, (i 0).isLt⟩ : Fin 16) = u := Fin.ext hu
  have e1 : (⟨(i 1).val, (i 1).isLt⟩ : Fin 64) = c := Fin.ext hc
  have e2 : (⟨(i 2).val, (i 2).isLt⟩ : Fin 256) = f := Fin.ext hf
  show _ = Vlad.D X C W B ⟨(i 0).val, (i 0).isLt⟩ ⟨(i 1).val, (i 1).isLt⟩ ⟨(i 2).val, (i 2).isLt⟩
  rw [e0, e1, e2]
  rfl

/-- The printed index maps over the grid: the utterances' and the result's block index is the point's number on the
    first axis and zero on the others; the other three windows' is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

variable (m : (ℓ : Loc nD τ sig) → Buf (Elt Ideal) ℓ) (ρ : Dev nD → PrngReg)

/-- The four argument arrays on core `c`. -/
abbrev argX (c : Dev nD) : Vlad.SX.Idx → EReal := m ((c : Thread nD τ).loc main_arg0)
abbrev argC (c : Dev nD) : Vlad.SC.Idx → EReal := m ((c : Thread nD τ).loc main_arg1)
abbrev argW (c : Dev nD) : Vlad.SW.Idx → EReal := m ((c : Thread nD τ).loc main_arg2)
abbrev argB (c : Dev nD) : Vlad.SB.Idx → EReal := m ((c : Thread nD τ).loc main_arg3)

/-- A grid point's number as an utterance's. -/
def uOf (t : Fin cfg0.N) : Fin 16 := ⟨t.val, by have h := t.isLt; have hN : cfg0.N = 16 := N_0; omega⟩

/-- The bias column the region finds: the bias vector re-laid. -/
theorem V_bias (c : Dev nD) : V m c main_v0 = shapeCast S66x1 (argB m c) shapeCasts_S66_S66x1 := by
  show StableHlo.after hostOps0 (fun b => m (c, b)) (Proc.devRef .tc main_v0) = _
  after_results
  rfl

/-- Point `t`'s block of the utterances is utterance `t`. -/
theorem frames_read (c : Dev nD) (t : Fin cfg0.N) (f : Fin 256) (t' : Fin 1500) :
    (iblk m c 0 t : Vec Ideal S1x256x1500 .f32) (ix3 (0 : Fin 1) f t') = argX m c (ix3 (uOf t) f t') := by
  obtain ⟨e0, e1, e2, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 3) * 1 + 1 * 0 = t.val; omega
  | ⟨1, _⟩ => show win0_0.index t (1 : Fin 3) * 256 + 1 * f.val = f.val; omega
  | ⟨2, _⟩ => show win0_0.index t (2 : Fin 3) * 1500 + 1 * t'.val = t'.val; omega

/-- Every point's block of the weights is the weights. -/
theorem weights_read (c : Dev nD) (t : Fin cfg0.N) (c' : Fin 66) (f : Fin 256) :
    (iblk m c 1 t : Vec Ideal S66x256 .f32) (ix2 c' f) = argW m c (ix2 c' f) := by
  obtain ⟨-, -, -, e0, e1, -⟩ := idx_facts t
  unfold iblk
  rw [View.read_apply]
  show V m c main_arg2 _ = _
  rw [V_main_arg2]
  refine congrArg (argW m c) (funext fun a => Fin.ext ?_)
  match a with
  | ⟨0, _⟩ => show win0_1.index t (0 : Fin 2) * 66 + 1 * c'.val = c'.val; omega
  | ⟨1, _⟩ => show win0_1.index t (1 : Fin 2) * 256 + 1 * f.val = f.val; omega

/-- Every point's block of the bias column is the bias vector, entry `c'` at `(c', 0)`. -/
theorem bias_read (c : Dev nD) (t : Fin cfg0.N) (c' : Fin 66) :
    (iblk m c 2 t : Vec Ideal S66x1 .f32) (ix2 c' (0 : Fin 1)) = argB m c (ix1 c') := by
  obtain ⟨-, -, -, -, -, e0, e1, -⟩ := idx_facts t
  unfold iblk
  rw [View.read_apply]
  show V m c main_v0 _ = _
  rw [V_bias]
  refine Eq.trans (congrArg (shapeCast S66x1 (argB m c) shapeCasts_S66_S66x1) (funext fun a => Fin.ext ?_))
    (Cert.Lib.Column.shapeCast_a_a1_apply (argB m c) shapeCasts_S66_S66x1 c' (0 : Fin 1))
  match a with
  | ⟨0, _⟩ => show win0_2.index t (0 : Fin 2) * 66 + 1 * c'.val = c'.val; omega
  | ⟨1, _⟩ => show win0_2.index t (1 : Fin 2) * 1 + 1 * 0 = 0; omega

/-- Every point's block of the centroids is the centroids. -/
theorem centroids_read (c : Dev nD) (t : Fin cfg0.N) (c' : Fin 64) (f : Fin 256) :
    (iblk m c 3 t : Vec Ideal S64x256 .f32) (ix2 c' f) = argC m c (ix2 c' f) := by
  obtain ⟨-, -, -, -, -, -, -, e0, e1, -⟩ := idx_facts t
  unfold iblk
  rw [View.read_apply]
  show V m c main_arg1 _ = _
  rw [V_main_arg1]
  refine congrArg (argC m c) (funext fun a => Fin.ext ?_)
  match a with
  | ⟨0, _⟩ => show win0_3.index t (0 : Fin 2) * 64 + 1 * c'.val = c'.val; omega
  | ⟨1, _⟩ => show win0_3.index t (1 : Fin 2) * 256 + 1 * f.val = f.val; omega

/-- The array of blocks, of the argument arrays. -/
abbrev G (c : Dev nD) : Vlad.SR.Idx → EReal := Vlad.region (argX m c) (argC m c) (argW m c) (argB m c)

/-- WHAT POINT `t` WRITES BACK is block `t` of the specification's array of blocks. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1x256x1500) hz3, View.ld_unit_zero (S := S66x256) hz2,
    View.ld_unit_zero (S := S66x1) hz2, View.ld_unit_zero (S := S64x256) hz2]
  obtain ⟨-, -, -, -, -, -, -, -, -, o0, o1, o2⟩ := idx_facts t
  funext j
  show k0_pay1 (k0_pay2 (iblk m c 0 t) (iblk m c 1 t) (iblk m c 2 t) (iblk m c 3 t))
      (k0_pay3 (iblk m c 0 t) (iblk m c 1 t) (iblk m c 2 t) (iblk m c 3 t)) j
    = G m c (((cfg0.win 4).blk t).view.emb j)
  refine (stored_at (iblk m c 0 t) (iblk m c 1 t) (iblk m c 2 t) (iblk m c 3 t) j).trans ?_
  refine region_of_block (argX m c) (argC m c) (argW m c) (argB m c) (uOf t) _ _ (((cfg0.win 4).blk t).view.emb j)
    ?_ ?_ ?_ ?_ ?_ ?_ ?_
  · exact funext fun f => funext fun t' => frames_read m c t f t'
  · exact funext fun c' => funext fun f => weights_read m c t c' f
  · exact funext fun c' => bias_read m c t c'
  · exact funext fun c' => funext fun f => centroids_read m c t c' f
  · show win0_4.index t (0 : Fin 3) * 1 + 1 * (j 0).val = t.val
    have hj : (j 0).val < 1 := (j 0).isLt
    omega
  · show win0_4.index t (1 : Fin 3) * 64 + 1 * (j 1).val = (j 1).val
    omega
  · show win0_4.index t (2 : Fin 3) * 256 + 1 * (j 2).val = (j 2).val
    omega

/-- An index of the array is in point `t`'s block iff each coordinate is in the block's range on its axis. -/
theorem mem_blk (t : Fin cfg0.N) (i : S16x64x256.Idx) :
    i ∈ ((cfg0.win 4).blk t).view.set ↔ ∀ a : Fin 3, win0_4.index t a * S1x64x256.size a ≤ (i a).val
      ∧ (i a).val < win0_4.index t a * S1x64x256.size a + S1x64x256.size a := by
  show i ∈ ((View.whole main_v1).slice (win0_4.rect t)).set ↔ _
  rw [View.set_slice_whole, Rect.mem_set_unit]
  exact Iff.rfl

/-- The 16 blocks cover the array: an index lies in the block of the point numbered by its first coordinate. -/
theorem cover (i : S16x64x256.Idx) :
    ∃ t : Fin cfg0.N, (cfg0.win 4).flush t = true ∧ i ∈ ((cfg0.win 4).blk t).view.set := by
  have h0 : (i 0).val < 16 := (i 0).isLt
  have h1 : (i 1).val < 64 := (i 1).isLt
  have h2 : (i 2).val < 256 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, -, o0, o1, o2⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 64 ≤ (i 1).val ∧ (i 1).val < win0_4.index t (1 : Fin 3) * 64 + 64
    omega
  | ⟨2, _⟩ =>
    show win0_4.index t (2 : Fin 3) * 256 ≤ (i 2).val ∧ (i 2).val < win0_4.index t (2 : Fin 3) * 256 + 256
    omega

/-- THE ARRAY after the region is the specification's array of blocks. -/
theorem final (c : Dev nD) : (dats m 0 c).arrAt 4 cfg0.N = G m c :=
  (dats m 0 c).arrAt_eq_of_cover 4 (G m c) (fun t _ => flushed_eq m c t) cover

/-- The result buffer after the program's last step: the array of blocks with each block listed row after row. -/
theorem tail_eq (c : Dev nD) (h : Vlad.SR.ShapeCasts Vlad.SO) :
    Pipeline.afterTail₀ cfgs (dats m) 0 (V0 m) [hostOps1] c main_v2
      = Vlad.result (argX m c) (argC m c) (argW m c) (argB m c) h := by
  unfold Pipeline.afterTail₀
  show StableHlo.after hostOps1 _ (Proc.devRef .tc main_v2) = _
  after_results
  rw [show Pipeline.withArrays (cfgs 0).spec c (V0 m c) (fun w => (dats m 0 c).arrAt w (cfgs 0).N)
      (Proc.devRef .tc main_v1) = G m c from
    (Pipeline.withArrays_arr spec0 launch0.win.arr_inj c _ _ 4).trans (final m c)]
  rfl

/-- THE RUN: every weakly fair execution ends with the result buffer at the specification's result of the argument
    arrays, and the argument arrays unchanged. -/
theorem run (h : Vlad.SR.ShapeCasts Vlad.SO) :
    θ_run defs (onTc (τ := τ) (main (F := Ideal))) ⟨m, fun _ => 0, ρ⟩ fun r => ∀ c : Dev nD,
      r.2.mem ((c.tc : Thread nD τ).loc main_v2) = Vlad.result (argX m c) (argC m c) (argW m c) (argB m c) h
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c =>
    ⟨((hr c).2 main_v2 (Pipeline.mem_restRefs_of main_v2 (by decide) (by decide))).trans (tail_eq m c h),
      ((hr c).1 0).trans (((dats m 0 c).arrAt_in 0 rfl _).trans ((A_eq m c 0).trans (V_main_arg0 m c))),
      ((hr c).1 3).trans (((dats m 0 c).arrAt_in 3 rfl _).trans ((A_eq m c 3).trans (V_main_arg1 m c))),
      ((hr c).1 1).trans (((dats m 0 c).arrAt_in 1 rfl _).trans ((A_eq m c 1).trans (V_main_arg2 m c))),
      ((hr c).2 main_arg3 (Pipeline.mem_restRefs_of main_arg3 (by decide) (by decide))).trans
        (W_main_arg3 m (dats m) c)⟩)
    (run_main m ρ)

end Cert.KernelIdeal.Whole

end
-- ==== Proof.RefValue.lean ====
/-
  The reference program's result, stage by stage, is the specification's.

  The reference works on whole arrays: the utterances transposed to frames × features, the scores for all utterances
  as one contraction over the features, the soft assignments by a maximum and a sum over the last axis, the
  aggregation as a contraction over the frames batched over the utterances, each cluster's row scaled to unit
  length, the blocks listed row after row, and each utterance's listed block scaled to unit length. Read at an
  index, each of its stages is the specification's stage of the same name for that index's utterance:

  * a product of frame and weight is the product of weight and frame (multiplication commutes on the extended reals);
  * a sum started from the zero word is the sum;
  * the maximum over the clusters is the fold of max from −∞ over the clusters' coordinates;
  * the sum over the 16384 listed positions of a block is the sum over its rows of the sums over each row.
-/
import proofs.«153737_j53171695125185_1_alg».proof.Proof.Gen.ReferenceIdeal.Read
import proofs.«153737_j53171695125185_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.SL.Sem

variable (x0 : S16x256x1500.Idx → EReal) (x1 : S64x256.Idx → EReal) (x2 : S66x256.Idx → EReal) (x3 : S66.Idx → EReal)

/-- The scores of utterance `u`. -/
theorem logit_eq (u : Fin 16) (t : Fin 1500) (c : Fin 66) :
    val_main_v4 (F := Ideal) x0 x2 x3 (ix3 u t c) = Vlad.logit (Vlad.utt x0 u) (Vlad.rows x2) (Vlad.entries x3) c t := by
  rw [val_main_v4_apply, val_main_v1_apply, val_main_v3_apply, val_main_v2_apply]
  unfold Vlad.logit Vlad.utt Vlad.rows Vlad.entries
  refine congrArg₂ (· + ·) (Finset.sum_congr rfl fun k _ => ?_) ?_
  · rw [val_main_v0_apply, mul_comm]
    refine congrArg₂ (· * ·) (congrArg x2 ?_) (congrArg x0 ?_)
    · exact funext fun a => Fin.ext (by match a with | ⟨0, _⟩ => rfl | ⟨1, _⟩ => rfl)
    · exact funext fun a => Fin.ext (by match a with | ⟨0, _⟩ => rfl | ⟨1, _⟩ => rfl | ⟨2, _⟩ => rfl)
  · exact congrArg x3 (funext fun a => Fin.ext (by match a with | ⟨0, _⟩ => rfl))

/-- The scores of utterance `u` as a matrix of the reference's array. -/
abbrev scores (u : Fin 16) : Fin 66 → Fin 1500 → EReal := fun c t => val_main_v4 (F := Ideal) x0 x2 x3 (ix3 u t c)

/-- Each frame's largest score. -/
theorem peak_eq (u : Fin 16) (t : Fin 1500) :
    val_main_v7 (F := Ideal) x0 x2 x3 (ix2 u t) = Vlad.peak (scores x0 x2 x3 u) t := by
  rw [val_main_v7_apply, val_main_v6_apply, val_main_cst_0_apply]
  unfold Vlad.peak
  refine congrArg (max _) ?_
  unfold val_main_v5
  refine (Host.reduce_eq_fold_single (FloatOps.maximumf (F := Ideal) (φ := .f32)) (val_main_v4 (F := Ideal) x0 x2 x3)
    (val_main_cst (F := Ideal)) reducesTo_S16x1500x66_S16x1500_d2 (by decide) h_S_ (ix2 u t)).trans ?_
  show (Finset.univ : Finset (Fin 66)).fold max (Ideal.ofBits .f32 0xFF800000#32)
    (fun c => val_main_v4 (F := Ideal) x0 x2 x3 ((by decide : S16x1500x66.Reduces [2] S16x1500).lift (ix2 u t) c)) = _
  refine congrArg (fun g => (Finset.univ : Finset (Fin 66)).fold max (Ideal.ofBits .f32 0xFF800000#32) g) ?_
  funext c
  exact congrArg (val_main_v4 (F := Ideal) x0 x2 x3)
    (funext fun a => Fin.ext (by match a with | ⟨0, _⟩ => rfl | ⟨1, _⟩ => rfl | ⟨2, _⟩ => rfl))

/-- The shifted exponentials. -/
theorem expo_eq (u : Fin 16) (t : Fin 1500) (c : Fin 66) :
    val_main_v11 (F := Ideal) x0 x2 x3 (ix3 u t c) = Vlad.expo (scores x0 x2 x3 u) c t := by
  rw [val_main_v11_apply, val_main_v10_apply, val_main_v9_apply, val_main_v8_apply]
  have e : idx_main_v8 (idx_main_v9 (ix3 u t c)) = ix2 u t :=
    funext fun a => Fin.ext (by match a with | ⟨0, _⟩ => rfl | ⟨1, _⟩ => rfl)
  rw [e, peak_eq]
  rfl

/-- Each frame's sum of shifted exponentials. -/
theorem mass_eq (u : Fin 16) (t : Fin 1500) :
    val_main_v12 (F := Ideal) x0 x2 x3 (ix2 u t) = Vlad.mass (scores x0 x2 x3 u) t := by
  rw [val_main_v12_apply, val_main_cst_1_apply]
  unfold Vlad.mass
  show Ideal.ofBits .f32 0x00000000#32 + _ = _
  rw [Ideal.ofBits_zero_f32, zero_add]
  refine Finset.sum_congr rfl fun k _ => ?_
  have e : idx_main_v12 (ix2 u t) k = ix3 u t k :=
    funext fun a => Fin.ext (by match a with | ⟨0, _⟩ => rfl | ⟨1, _⟩ => rfl | ⟨2, _⟩ => rfl)
  rw [e, expo_eq]

/-- The soft assignments. -/
theorem weight_eq (u : Fin 16) (t : Fin 1500) (c : Fin 66) :
    val_main_v15 (F := Ideal) x0 x2 x3 (ix3 u t c) = Vlad.weight (scores x0 x2 x3 u) c t := by
  rw [val_main_v15_apply, val_main_v14_apply, val_main_v13_apply]
  have e : idx_main_v13 (idx_main_v14 (ix3 u t c)) = ix2 u t :=
    funext fun a => Fin.ext (by match a with | ⟨0, _⟩ => rfl | ⟨1, _⟩ => rfl)
  rw [e, mass_eq, expo_eq]
  rfl

/-- The kept clusters' soft assignments. -/
theorem assigned_eq (u : Fin 16) (t : Fin 1500) (c : Fin 64) :
    val_main_v16 (F := Ideal) x0 x2 x3 (ix3 u t c)
      = Vlad.assigned (Vlad.utt x0 u) (Vlad.rows x2) (Vlad.entries x3) c t := by
  rw [val_main_v16_apply]
  have e : idx_main_v16 (ix3 u t c) = ix3 u t (Vlad.kept c) :=
    funext fun a => Fin.ext (by match a with | ⟨0, _⟩ => rfl | ⟨1, _⟩ => rfl | ⟨2, _⟩ => rfl)
  rw [e, weight_eq]
  unfold Vlad.assigned
  refine congrArg (fun l => Vlad.weight l (Vlad.kept c) t) ?_
  funext c' t'
  exact logit_eq x0 x2 x3 u t' c'

/-- The residuals. -/
theorem residual_eq (u : Fin 16) (c : Fin 64) (f : Fin 256) :
    val_main_v24 (F := Ideal) x0 x1 x2 x3 (ix3 u c f)
      = Vlad.residual (Vlad.assigned (Vlad.utt x0 u) (Vlad.rows x2) (Vlad.entries x3)) (Vlad.utt x0 u) (Vlad.rows x1) c f := by
  rw [val_main_v24_apply, val_main_v17_apply, val_main_v23_apply, val_main_v21_apply, val_main_v19_apply,
    val_main_v18_apply, val_main_cst_2_apply, val_main_v22_apply, val_main_v20_apply]
  unfold Vlad.residual Vlad.occupancy
  show (∑ k : Fin 1500, _) - (Ideal.ofBits .f32 0x00000000#32 + ∑ k : Fin 1500, _) * _ = _
  rw [Ideal.ofBits_zero_f32, zero_add]
  refine congrArg₂ (· - ·) (Finset.sum_congr rfl fun k _ => ?_) (congrArg₂ (· * ·) (Finset.sum_congr rfl fun k _ => ?_) ?_)
  · have el : lidx_main_v17 (ix3 u c f) k = ix3 u k c :=
      funext fun a => Fin.ext (by match a with | ⟨0, _⟩ => rfl | ⟨1, _⟩ => rfl | ⟨2, _⟩ => rfl)
    rw [el, assigned_eq, val_main_v0_apply]
    exact congrArg (_ * ·) (congrArg x0
      (funext fun a => Fin.ext (by match a with | ⟨0, _⟩ => rfl | ⟨1, _⟩ => rfl | ⟨2, _⟩ => rfl)))
  · have e : idx_main_v18 (idx_main_v19 (idx_main_v21 (ix3 u c f))) k = ix3 u k c :=
      funext fun a => Fin.ext (by match a with | ⟨0, _⟩ => rfl | ⟨1, _⟩ => rfl | ⟨2, _⟩ => rfl)
    rw [e, assigned_eq]
  · exact congrArg x1 (funext fun a => Fin.ext (by match a with | ⟨0, _⟩ => rfl | ⟨1, _⟩ => rfl))

/-- Each cluster's row scaled to unit length. -/
theorem scaled_eq (u : Fin 16) (c : Fin 64) (f : Fin 256) :
    val_main_v29 (F := Ideal) x0 x1 x2 x3 (ix3 u c f)
      = Vlad.scaled (Vlad.utt x0 u) (Vlad.rows x2) (Vlad.entries x3) (Vlad.rows x1) c f := by
  rw [val_main_v29_apply, val_main_v28_apply, val_main_v27_apply, val_main_v25_apply, val_main_call0_v2_apply,
    val_main_call0_v1_apply, val_main_call0_cst_apply, val_main_v26_apply, val_main_cst_3_apply]
  unfold Vlad.scaled Vlad.intra Vlad.rowNorm Vlad.rowEnergy
  show Ideal.div _ (max (Ideal.sqrt (Ideal.ofBits .f32 0x00000000#32 + ∑ k : Fin 256, _)) (Ideal.ofBits .f32 0x2B8CBCCC#32)) = _
  rw [Ideal.ofBits_zero_f32, zero_add, residual_eq]
  refine congrArg (fun s => Ideal.div _ (max (Ideal.sqrt s) _)) (Finset.sum_congr rfl fun k _ => ?_)
  have e : idx_main_call0_v1 (idx_main_call0_v2 (idx_main_v28 (ix3 u c f))) k = ix3 u c k :=
    funext fun a => Fin.ext (by match a with | ⟨0, _⟩ => rfl | ⟨1, _⟩ => rfl | ⟨2, _⟩ => rfl)
  rw [e, val_main_call0_v0_apply, residual_eq]
  rfl

/-- The blocks listed row after row: position `k` of utterance `u` is the row-scaled block's entry `(k / 256, k % 256)`. -/
theorem listed_eq (u : Fin 16) (k : Fin 16384) :
    val_main_v30 (F := Ideal) x0 x1 x2 x3 (ix2 u k)
      = Vlad.scaled (Vlad.utt x0 u) (Vlad.rows x2) (Vlad.entries x3) (Vlad.rows x1)
          ⟨k.val / 256, by have := k.isLt; omega⟩ ⟨k.val % 256, Nat.mod_lt _ (by decide)⟩ := by
  rw [val_main_v30_apply]
  have e : idx_main_v30 (ix2 u k)
      = ix3 u (⟨k.val / 256, by have := k.isLt; omega⟩ : Fin 64) (⟨k.val % 256, Nat.mod_lt _ (by decide)⟩ : Fin 256) :=
    funext fun a => Fin.ext (by
      have hu := u.isLt
      have hk := k.isLt
      match a with
      | ⟨0, _⟩ => show (u.val * 16384 + k.val) / 16384 = u.val; omega
      | ⟨1, _⟩ => show (u.val * 16384 + k.val) / 256 % 64 = k.val / 256; omega
      | ⟨2, _⟩ => show (u.val * 16384 + k.val) % 256 = k.val % 256; omega)
  rw [e, scaled_eq]

set_option maxRecDepth 1000000 in
/-- THE REFERENCE'S RESULT is the specification's: each listed block divided by its floored length, the length's sum
    of squares over the 16384 positions regrouped by rows. -/
theorem result_eq (h : Vlad.SR.ShapeCasts Vlad.SO) :
    val_main_v35 (F := Ideal) x0 x1 x2 x3 = Vlad.result x0 x1 x2 x3 h := by
  funext i
  obtain ⟨u, k, rfl⟩ : ∃ (u : Fin 16) (k : Fin 16384), i = ix2 u k := ⟨i 0, i 1, eq_ix2 i⟩
  have hr : Vlad.result x0 x1 x2 x3 h (ix2 u k)
      = Vlad.D x0 x1 x2 x3 u ⟨k.val / 256, by have := k.isLt; omega⟩ ⟨k.val % 256, Nat.mod_lt _ (by decide)⟩ := by
    unfold Vlad.result
    refine (shapeCast_apply (Vlad.region x0 x1 x2 x3) h (ix2 u k)
      (ix3 u (⟨k.val / 256, by have := k.isLt; omega⟩ : Fin 64) (⟨k.val % 256, Nat.mod_lt _ (by decide)⟩ : Fin 256)) ?_).trans
      (Vlad.region_ix3 x0 x1 x2 x3 u _ _)
    rw [Shape.rowMajor_val_three, Shape.rowMajor_val_two]
    have hk := k.isLt
    show (u.val * 64 + k.val / 256) * 256 + k.val % 256 = u.val * 16384 + k.val
    omega
  rw [hr, val_main_v35_apply, val_main_v34_apply, val_main_v33_apply, val_main_v31_apply, val_main_call1_v2_apply,
    val_main_call1_v1_apply, val_main_call1_cst_apply, val_main_v32_apply, val_main_cst_4_apply, listed_eq]
  unfold Vlad.D Vlad.descriptor Vlad.totalNorm Vlad.energy Vlad.rowEnergy
  simp only [Ideal.hostDivf_def, Ideal.maximumf_def, Ideal.hostUnary_sqrt_def, Ideal.ofBits_def, Ideal.ofBits_zero_f32,
    zero_add]
  refine congrArg (fun s => Ideal.div _ (max (Ideal.sqrt s) _)) ?_
  refine Eq.trans (Finset.sum_congr rfl fun k' _ => ?_)
    (Vlad.sum_positions fun c f =>
      Vlad.scaled (Vlad.utt x0 u) (Vlad.rows x2) (Vlad.entries x3) (Vlad.rows x1) c f
        * Vlad.scaled (Vlad.utt x0 u) (Vlad.rows x2) (Vlad.entries x3) (Vlad.rows x1) c f)
  have e : idx_main_call1_v1 (idx_main_call1_v2 (idx_main_v34 (ix2 u k))) k' = ix2 u k' :=
    funext fun a => Fin.ext (by match a with | ⟨0, _⟩ => rfl | ⟨1, _⟩ => rfl)
  rw [e, val_main_call1_v0_apply, listed_eq]
  rfl

end Cert.ReferenceIdeal.RefValue

end
-- ==== Proof.lean ====
/-
  A soft-assignment residual descriptor (NetVLAD-style aggregation): the tiled program against the whole-array one,
  on the extended reals.

  For each of 16 utterances x (256 features × 1500 frames), with weights w (66 × 256), biases b (66) and centroids
  cen (64 × 256), both programs compute

    logit c t      = (∑ f, w c f · x f t) + b c
    weight c t     = exp (logit c t − peak t) / ∑ c', exp (logit c' t − peak t),     peak t = max over c of logit c t
    residual c f   = (∑ t, weight c t · x f t) − (∑ t, weight c t) · cen c f          for the first 64 clusters
    intra c f      = residual c f / max (√ ∑ f', residual c f'²) ε
    descriptor c f = intra c f / max (√ ∑ c' f', intra c' f'²) ε

  and list the 64 × 256 block of each utterance row after row. The tiled program computes one utterance per grid point,
  sums the squares of a block row by row and then over the rows; the whole-array program transposes the utterances,
  multiplies frame by weight where the tiled one multiplies weight by frame, and sums the squares of a listed block over
  its 16384 positions at once. The two agree on all extended reals: only the commutativity of the product and the
  regrouping of a finite sum are used, so the finiteness of the inputs is never needed for the values.

  The proof: Proof/Spec.lean states the result as one function of the four argument arrays; Proof/KernelBody.lean reads
  what a grid point stores at an index; Proof/KernelValue.lean goes from the grid points' blocks to the program's result
  array; Proof/RefValue.lean reads the whole-array program's result at an index; the claims are assembled here. The
  three frames are the generated ones (the whole-array program's frame is its generated run with the result dropped);
  the idealization rewrote nothing, so the tiled program's idealization is sanctioned trivially.
-/
import proofs.«153737_j53171695125185_1_alg».proof.Defs
import proofs.«153737_j53171695125185_1_alg».proof.Proof.Gen.Kernel
import proofs.«153737_j53171695125185_1_alg».proof.Proof.Gen.Kernel.Skeleton
import proofs.«153737_j53171695125185_1_alg».proof.Proof.Gen.Kernel.Launch
import proofs.«153737_j53171695125185_1_alg».proof.Proof.Gen.Kernel.Points
import proofs.«153737_j53171695125185_1_alg».proof.Proof.Gen.Kernel.Frame
import proofs.«153737_j53171695125185_1_alg».proof.Proof.Gen.KernelIdeal
import proofs.«153737_j53171695125185_1_alg».proof.Proof.Gen.KernelIdeal.Skeleton
import proofs.«153737_j53171695125185_1_alg».proof.Proof.Gen.KernelIdeal.Launch
import proofs.«153737_j53171695125185_1_alg».proof.Proof.Gen.KernelIdeal.Points
import proofs.«153737_j53171695125185_1_alg».proof.Proof.Gen.KernelIdeal.Frame
import proofs.«153737_j53171695125185_1_alg».proof.Proof.Gen.ReferenceIdeal
import proofs.«153737_j53171695125185_1_alg».proof.Proof.Gen.Pre_finite_inputs
import proofs.«153737_j53171695125185_1_alg».proof.Proof.Gen.ReferenceIdeal.Run
import proofs.«153737_j53171695125185_1_alg».proof.Proof.Gen.ReferenceIdeal.Read
import proofs.«153737_j53171695125185_1_alg».proof.Proof.KernelValue
import proofs.«153737_j53171695125185_1_alg».proof.Proof.RefValue
import Idealize.ShloMosaic.Adequacy
import Idealize.ShloMosaic.Init

noncomputable section

namespace Cert.Proof

open Idealize.ShloMosaic Idealize.SL.Sem

/-- The tiled program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The whole-array program runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Listing the blocks row after row keeps the number of entries. -/
theorem listed : Cert.Vlad.SR.ShapeCasts Cert.Vlad.SO := by decide

/-- From memories agreeing on the four arguments both programs end with the specification's result of those arguments:
    the tiled one by its run read block by block, the whole-array one by its run read index by index. -/
theorem algebraic : Cert.algebraic_KernelIdeal_ReferenceIdeal := by
  intro m ρ m' ρ' _ hagree
  refine ⟨fun c => Cert.Vlad.result (Cert.KernelIdeal.Whole.argX m c) (Cert.KernelIdeal.Whole.argC m c)
    (Cert.KernelIdeal.Whole.argW m c) (Cert.KernelIdeal.Whole.argB m c) listed,
    Cert.KernelIdeal.Whole.run m ρ listed, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2]
  exact Cert.ReferenceIdeal.RefValue.result_eq _ _ _ _ listed

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
